-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x64x128 : Shape := ⟨4, ![64, 64, 64, 128]⟩
abbrev S128x128 : Shape := ⟨2, ![128, 128]⟩
abbrev S_ : Shape := ⟨0, ![]⟩

class Facts : Prop where
  bcast_S_S64x64x64x128 : S_.BroadcastsInDim S64x64x64x128 (![] : Fin 0 → Fin S64x64x64x128.rank)
  reducesTo_S64x64x64x128_S_d0_1_2_3 : S64x64x64x128.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S64x64x64x128 .f32) (main_arg1 : FVec F S128x128 .f32) (main_arg2 : FVec F S128x128 .f32) (main_arg3 : FVec F S128x128 .f32) : IVec S_ 1 :=
  let main_v0 : FVec F S64x64x64x128 .f32 := Host.absf main_arg0
  let main_cst : FVec F S_ .f32 := constant S_ .f32 0x7F800000#32
  let main_v1 : FVec F S64x64x64x128 .f32 := broadcastInDim S64x64x64x128 ![] bcast_S_S64x64x64x128 main_cst
  let main_v2 : IVec S64x64x64x128 1 := cmpf .olt main_v0 main_v1
  let main_c : IVec S_ 1 := constantI S_ 1 1#1
  let main_v3 : IVec S_ 1 := (fun x v => Host.reduce IntOp.andi x v reducesTo_S64x64x64x128_S_d0_1_2_3 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S64x64x64x128 : Shape := ⟨4, ![64, 64, 64, 128]⟩
abbrev S128x128 : Shape := ⟨2, ![128, 128]⟩
abbrev S2x64x64x128 : Shape := ⟨4, ![2, 64, 64, 128]⟩
abbrev S2x64x128 : Shape := ⟨3, ![2, 64, 128]⟩
abbrev S8192x128 : Shape := ⟨2, ![8192, 128]⟩
abbrev S2x64x1x128 : Shape := ⟨4, ![2, 64, 1, 128]⟩
abbrev S2x1x64x128 : Shape := ⟨4, ![2, 1, 64, 128]⟩

abbrev nBuf : Space → Nat
  | .hbm => 8
  | .vmem => 7
  | .smem => 0
  | _ => 0

abbrev bufTy : (tb : Table) → Fin (tcTables nBuf tb) → BufTy
  | .hbm, ⟨0, _⟩ => ⟨S64x64x64x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S64x64x64x128, .f32⟩
  | .local _ .vmem, ⟨0, _⟩ => ⟨S2x64x64x128, .f32⟩
  | .local _ .vmem, ⟨1, _⟩ => ⟨S2x64x64x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S2x64x64x128, .f32⟩
  | .local _ .vmem, ⟨6, _⟩ => ⟨S2x64x64x128, .f32⟩
  | _, _ => ⟨S64x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x64x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x128_S128x128_1_0 : S128x128.Transposes [1, 0] S128x128
  inb_S2x64x64x128_S2x64x64x128_0_0_0_0 : ∀ a, (![0, 0, 0, 0] : Fin 4 → Nat) a + S2x64x64x128.size a ≤ S2x64x64x128.size a
  h_S2x64x64x128 : 0 < S2x64x64x128.numel
  reduces_S2x64x64x128_S2x64x128 : S2x64x64x128.Reduces [2] S2x64x128
  reduces_S2x64x64x128_S2x64x128_2 : S2x64x64x128.Reduces [1] S2x64x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S2x64x64x128_S8192x128 : S2x64x64x128.ShapeCasts S8192x128
  shapeCasts_S8192x128_S2x64x64x128 : S8192x128.ShapeCasts S2x64x64x128
  shapeCasts_S2x64x128_S128x128 : S2x64x128.ShapeCasts S128x128
  shapeCasts_S128x128_S2x64x128 : S128x128.ShapeCasts S2x64x128
  shapeCasts_S2x64x128_S2x64x1x128 : S2x64x128.ShapeCasts S2x64x1x128
  broadcasts_S2x64x1x128_S2x64x64x128 : S2x64x1x128.Broadcasts S2x64x64x128
  shapeCasts_S2x64x128_S2x1x64x128 : S2x64x128.ShapeCasts S2x1x64x128
  broadcasts_S2x1x64x128_S2x64x64x128 : S2x1x64x128.Broadcasts S2x64x64x128
  dot_S8192x128_S128x128_S8192x128_1_0_0_1_n_n_wf : DotDims.WF S8192x128 S128x128 S8192x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x64x128.size a ≤ S64x64x64x128.size a
  hwx0_0 : ∀ i : grid0.Coords, EltTy.bits .f32 = 32 ∨ (Rect.block (s := S64x64x64x128) S2x64x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x64x64x128.size a ≤ S64x64x64x128.size a
  hwx0_4 : ∀ i : grid0.Coords, EltTy.bits .f32 = 32 ∨ (Rect.block (s := S64x64x64x128) S2x64x64x128.size (cc0_transform_4 i) (hinb0_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S2x64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2x64x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x64x64x128 : Shape := ⟨4, ![64, 64, 64, 128]⟩
abbrev S128x128 : Shape := ⟨2, ![128, 128]⟩
abbrev S_ : Shape := ⟨0, ![]⟩
abbrev S64x64x128 : Shape := ⟨3, ![64, 64, 128]⟩
abbrev S64x64x1x128 : Shape := ⟨4, ![64, 64, 1, 128]⟩
abbrev S64x1x64x128 : Shape := ⟨4, ![64, 1, 64, 128]⟩

abbrev nBuf : Space → Nat
  | .hbm => 17
  | .vmem => 0
  | .smem => 0
  | _ => 0

abbrev bufTy : (tb : Table) → Fin (tcTables nBuf tb) → BufTy
  | .hbm, ⟨0, _⟩ => ⟨S64x64x64x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S64x64x128, .f32⟩
  | .hbm, ⟨6, _⟩ => ⟨S_, .f32⟩
  | .hbm, ⟨7, _⟩ => ⟨S64x64x128, .f32⟩
  | .hbm, ⟨8, _⟩ => ⟨S64x64x64x128, .f32⟩
  | .hbm, ⟨9, _⟩ => ⟨S64x64x128, .f32⟩
  | .hbm, ⟨10, _⟩ => ⟨S64x64x1x128, .f32⟩
  | .hbm, ⟨11, _⟩ => ⟨S64x64x128, .f32⟩
  | .hbm, ⟨12, _⟩ => ⟨S64x1x64x128, .f32⟩
  | .hbm, ⟨13, _⟩ => ⟨S64x64x64x128, .f32⟩
  | .hbm, ⟨14, _⟩ => ⟨S64x64x64x128, .f32⟩
  | .hbm, ⟨15, _⟩ => ⟨S64x64x64x128, .f32⟩
  | .hbm, ⟨16, _⟩ => ⟨S64x64x64x128, .f32⟩
  | _, _ => ⟨S64x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  reducesTo_S64x64x64x128_S64x64x128_d2 : S64x64x64x128.ReducesTo [2] S64x64x128
  h_S_ : 0 < S_.numel
  reducesTo_S64x64x64x128_S64x64x128_d1 : S64x64x64x128.ReducesTo [1] S64x64x128
  bcast_S64x64x128_S64x64x1x128_0_1_3 : S64x64x128.BroadcastsInDim S64x64x1x128 (![0, 1, 3] : Fin 3 → Fin S64x64x1x128.rank)
  bcast_S64x64x128_S64x1x64x128_0_2_3 : S64x64x128.BroadcastsInDim S64x1x64x128 (![0, 2, 3] : Fin 3 → Fin S64x1x64x128.rank)
  bcast_S64x64x1x128_S64x64x64x128_0_1_2_3 : S64x64x1x128.BroadcastsInDim S64x64x64x128 (![0, 1, 2, 3] : Fin 4 → Fin S64x64x64x128.rank)
  bcast_S64x1x64x128_S64x64x64x128_0_1_2_3 : S64x1x64x128.BroadcastsInDim S64x64x64x128 (![0, 1, 2, 3] : Fin 4 → Fin S64x64x64x128.rank)
  dot_S64x64x64x128_S128x128_S64x64x64x128_3_1_012_0_n_n_wf : DotDims.WF S64x64x64x128 S128x128 S64x64x64x128 [3] [1] [0, 1, 2] [0] [] []
  dot_S64x64x128_S128x128_S64x64x128_2_1_01_0_n_n_wf : DotDims.WF S64x64x128 S128x128 S64x64x128 [2] [1] [0, 1] [0] [] []

variable [Facts₀]

def dot_S64x64x64x128_S128x128_S64x64x64x128_3_1_012_0_n_n : DotDims S64x64x64x128 S128x128 S64x64x64x128 where
  lhsContracting := [3]
  rhsContracting := [1]
  lhsNonContracting := [0, 1, 2]
  rhsNonContracting := [0]
  lhsBatch := []
  rhsBatch := []
  wf := dot_S64x64x64x128_S128x128_S64x64x64x128_3_1_012_0_n_n_wf
def dot_S64x64x128_S128x128_S64x64x128_2_1_01_0_n_n : DotDims S64x64x128 S128x128 S64x64x128 where
  lhsContracting := [2]
  rhsContracting := [1]
  lhsNonContracting := [0, 1]
  rhsNonContracting := [0]
  lhsBatch := []
  rhsBatch := []
  wf := dot_S64x64x128_S128x128_S64x64x128_2_1_01_0_n_n_wf

class Facts : Prop extends Facts₀ where

variable [Facts]
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibReshape.lean ====
/-
  Reshapes of rank-4 and rank-3 arrays read at coordinates, over variable extents.

  The three leading axes of `[A, B, C, D]` merged into the rows of a matrix `[R, D]` and split back; the two leading axes of
  `[A, B, D]` merged into `[R, D]` and split back; a unit axis put second or third (`[A, C, D]` as `[A, 1, C, D]`,
  `[A, B, D]` as `[A, B, 1, D]`) and the broadcast that fills it; and the sum of a rank-4 array of extended reals over its
  second or its third axis.  A merged row index is written row-major: `(a · B + b) · C + c`.
-/
import Idealize.ShloMosaic.Lib.Pipeline.Value
import Idealize.ShloMosaic.Lib.ValueIdx
import Idealize.ShloMosaic.PureOps.Ideal.Laws

namespace Cert.LibReshape

open Idealize.ShloMosaic Idealize.ShloMosaic.ValueIdx

variable {α : Type}

/-- `[A, B, C, D]` with its three leading axes merged into `[R, D]`: row `(a · B + b) · C + c`, column `d`, reads the operand
    at `(a, b, c, d)`. -/
theorem merge3_apply {A B C D R : ℕ} (x : (⟨4, ![A, B, C, D]⟩ : Shape).Idx → α)
    (h : (⟨4, ![A, B, C, D]⟩ : Shape).ShapeCasts ⟨2, ![R, D]⟩) (a : Fin A) (b : Fin B) (c : Fin C) (d : Fin D) (r : Fin R)
    (hr : r.val = (a.val * B + b.val) * C + c.val) :
    shapeCast ⟨2, ![R, D]⟩ x h (ix2 r d) = x (ix4 a b c d) :=
  shapeCast_apply x h _ _ (by
    rw [Shape.rowMajor_val_four, Shape.rowMajor_val_two]
    show ((a.val * B + b.val) * C + c.val) * D + d.val = r.val * D + d.val
    rw [hr])

/-- A matrix `[R, D]` with its rows split into three axes `[A, B, C, D]`: entry `(a, b, c, d)` reads row
    `(a · B + b) · C + c`, column `d`. -/
theorem split3_apply {A B C D R : ℕ} (y : (⟨2, ![R, D]⟩ : Shape).Idx → α)
    (h : (⟨2, ![R, D]⟩ : Shape).ShapeCasts ⟨4, ![A, B, C, D]⟩) (a : Fin A) (b : Fin B) (c : Fin C) (d : Fin D) (r : Fin R)
    (hr : r.val = (a.val * B + b.val) * C + c.val) :
    shapeCast ⟨4, ![A, B, C, D]⟩ y h (ix4 a b c d) = y (ix2 r d) :=
  shapeCast_apply y h _ _ (by
    rw [Shape.rowMajor_val_four, Shape.rowMajor_val_two]
    show r.val * D + d.val = ((a.val * B + b.val) * C + c.val) * D + d.val
    rw [hr])

/-- `[A, B, D]` with its two leading axes merged into `[R, D]`: row `a · B + b`, column `d`, reads `(a, b, d)`. -/
theorem merge2_apply {A B D R : ℕ} (x : (⟨3, ![A, B, D]⟩ : Shape).Idx → α)
    (h : (⟨3, ![A, B, D]⟩ : Shape).ShapeCasts ⟨2, ![R, D]⟩) (a : Fin A) (b : Fin B) (d : Fin D) (r : Fin R)
    (hr : r.val = a.val * B + b.val) :
    shapeCast ⟨2, ![R, D]⟩ x h (ix2 r d) = x (ix3 a b d) :=
  shapeCast_apply x h _ _ (by
    rw [Shape.rowMajor_val_three, Shape.rowMajor_val_two]
    show (a.val * B + b.val) * D + d.val = r.val * D + d.val
    rw [hr])

/-- A matrix `[R, D]` with its rows split into two axes `[A, B, D]`: entry `(a, b, d)` reads row `a · B + b`, column `d`. -/
theorem split2_apply {A B D R : ℕ} (y : (⟨2, ![R, D]⟩ : Shape).Idx → α)
    (h : (⟨2, ![R, D]⟩ : Shape).ShapeCasts ⟨3, ![A, B, D]⟩) (a : Fin A) (b : Fin B) (d : Fin D) (r : Fin R)
    (hr : r.val = a.val * B + b.val) :
    shapeCast ⟨3, ![A, B, D]⟩ y h (ix3 a b d) = y (ix2 r d) :=
  shapeCast_apply y h _ _ (by
    rw [Shape.rowMajor_val_three, Shape.rowMajor_val_two]
    show r.val * D + d.val = (a.val * B + b.val) * D + d.val
    rw [hr])

/-- `[A, B, D]` given a unit third axis, `[A, B, 1, D]`: entry `(a, b, u, d)` reads `(a, b, d)`. -/
theorem unitThird_apply {A B D : ℕ} (x : (⟨3, ![A, B, D]⟩ : Shape).Idx → α)
    (h : (⟨3, ![A, B, D]⟩ : Shape).ShapeCasts ⟨4, ![A, B, 1, D]⟩) (a : Fin A) (b : Fin B) (u : Fin 1) (d : Fin D) :
    shapeCast ⟨4, ![A, B, 1, D]⟩ x h (ix4 a b u d) = x (ix3 a b d) :=
  shapeCast_apply x h _ _ (by
    have hu : u.val = 0 := by omega
    rw [Shape.rowMajor_val_three, Shape.rowMajor_val_four]
    show (a.val * B + b.val) * D + d.val = ((a.val * B + b.val) * 1 + u.val) * D + d.val
    rw [hu, Nat.mul_one, Nat.add_zero])

/-- `[A, C, D]` given a unit second axis, `[A, 1, C, D]`: entry `(a, u, c, d)` reads `(a, c, d)`. -/
theorem unitSecond_apply {A C D : ℕ} (x : (⟨3, ![A, C, D]⟩ : Shape).Idx → α)
    (h : (⟨3, ![A, C, D]⟩ : Shape).ShapeCasts ⟨4, ![A, 1, C, D]⟩) (a : Fin A) (u : Fin 1) (c : Fin C) (d : Fin D) :
    shapeCast ⟨4, ![A, 1, C, D]⟩ x h (ix4 a u c d) = x (ix3 a c d) :=
  shapeCast_apply x h _ _ (by
    have hu : u.val = 0 := by omega
    rw [Shape.rowMajor_val_three, Shape.rowMajor_val_four]
    show (a.val * C + c.val) * D + d.val = ((a.val * 1 + u.val) * C + c.val) * D + d.val
    rw [hu, Nat.mul_one, Nat.add_zero])

/-- A coordinate below `n` is itself unless `n = 1`, when it is `0`: the form a broadcast's side condition takes. -/
theorem val_eq_ite {n : ℕ} (a : Fin n) : a.val = if n = 1 then 0 else a.val := by
  split
  · have := a.isLt; omega
  · rfl

/-- `[A, B, 1, D]` repeated along its third axis to `[A, B, C, D]`: entry `(a, b, c, d)` reads `(a, b, 0, d)`. -/
theorem fillThird_apply {A B C D : ℕ} (v : (⟨4, ![A, B, 1, D]⟩ : Shape).Idx → α)
    (h : (⟨4, ![A, B, 1, D]⟩ : Shape).Broadcasts ⟨4, ![A, B, C, D]⟩) (a : Fin A) (b : Fin B) (c : Fin C) (d : Fin D) :
    broadcastTo ⟨4, ![A, B, C, D]⟩ v h (ix4 a b c d) = v (ix4 a b (0 : Fin 1) d) := by
  refine broadcastTo_apply v h (ix4 a b c d) (ix4 a b (0 : Fin 1) d) fun ax => ?_
  match ax with
  | ⟨0, _⟩ => exact val_eq_ite a
  | ⟨1, _⟩ => exact val_eq_ite b
  | ⟨2, _⟩ => rfl
  | ⟨3, _⟩ => exact val_eq_ite d

/-- `[A, 1, C, D]` repeated along its second axis to `[A, B, C, D]`: entry `(a, b, c, d)` reads `(a, 0, c, d)`. -/
theorem fillSecond_apply {A B C D : ℕ} (v : (⟨4, ![A, 1, C, D]⟩ : Shape).Idx → α)
    (h : (⟨4, ![A, 1, C, D]⟩ : Shape).Broadcasts ⟨4, ![A, B, C, D]⟩) (a : Fin A) (b : Fin B) (c : Fin C) (d : Fin D) :
    broadcastTo ⟨4, ![A, B, C, D]⟩ v h (ix4 a b c d) = v (ix4 a (0 : Fin 1) c d) := by
  refine broadcastTo_apply v h (ix4 a b c d) (ix4 a (0 : Fin 1) c d) fun ax => ?_
  match ax with
  | ⟨0, _⟩ => exact val_eq_ite a
  | ⟨1, _⟩ => rfl
  | ⟨2, _⟩ => exact val_eq_ite c
  | ⟨3, _⟩ => exact val_eq_ite d

/-- The sum of a rank-4 array of extended reals over its third axis, read at `(a, b, d)`: `∑ k, src (a, b, k, d)`. -/
theorem sumThird_apply {A B C D : ℕ} (src : FVec Ideal ⟨4, ![A, B, C, D]⟩ .f32) (acc : BitVec 32)
    (h : (⟨4, ![A, B, C, D]⟩ : Shape).Reduces [2] ⟨3, ![A, B, D]⟩) (hφ : FKind.Formats FTy.f32)
    (hacc : acc = FKind.add.neutral FTy.f32 hφ) (a : Fin A) (b : Fin B) (d : Fin D) :
    multiReduction .add [2] ⟨3, ![A, B, D]⟩ src acc h hφ hacc (ix3 a b d) = ∑ k : Fin C, src (ix4 a b k d) := by
  refine (Ideal.multiReduction_add_single src acc h hφ hacc (ix3 a b d)).trans ?_
  refine Finset.sum_congr rfl fun k _ => ?_
  exact congrArg src (funext fun ax => Fin.ext (by
    match ax with | ⟨0, _⟩ => rfl | ⟨1, _⟩ => rfl | ⟨2, _⟩ => rfl | ⟨3, _⟩ => rfl))

/-- The sum of a rank-4 array of extended reals over its second axis, read at `(a, c, d)`: `∑ k, src (a, k, c, d)`. -/
theorem sumSecond_apply {A B C D : ℕ} (src : FVec Ideal ⟨4, ![A, B, C, D]⟩ .f32) (acc : BitVec 32)
    (h : (⟨4, ![A, B, C, D]⟩ : Shape).Reduces [1] ⟨3, ![A, C, D]⟩) (hφ : FKind.Formats FTy.f32)
    (hacc : acc = FKind.add.neutral FTy.f32 hφ) (a : Fin A) (c : Fin C) (d : Fin D) :
    multiReduction .add [1] ⟨3, ![A, C, D]⟩ src acc h hφ hacc (ix3 a c d) = ∑ k : Fin B, src (ix4 a k c d) := by
  refine (Ideal.multiReduction_add_single src acc h hφ hacc (ix3 a c d)).trans ?_
  refine Finset.sum_congr rfl fun k _ => ?_
  exact congrArg src (funext fun ax => Fin.ext (by
    match ax with | ⟨0, _⟩ => rfl | ⟨1, _⟩ => rfl | ⟨2, _⟩ => rfl | ⟨3, _⟩ => rfl))

end Cert.LibReshape
-- ==== Proof.Spec.lean ====
/-
  The layer's value, entry by entry, and one grid point's share of it.

  For an input `x : [64, 64, 64, 128]` (batch `b`, row `m`, column `k`, feature `d`) and three weight matrices
  `w₁ w₂ w₃ : [128, 128]` (output channel `q`, feature `d`), the layer's entry `(b, m, k, q)` is

      ∑ d, x (b, m, k, d) · w₁ (q, d)  +  ∑ d, (∑ k', x (b, m, k', d)) · w₂ (q, d)  +  ∑ d, (∑ m', x (b, m', k, d)) · w₃ (q, d):

  the entry's own features, the sum of its row's and the sum of its column's, each through its own matrix.  All three sums
  stay inside batch `b`, so a block of two batch slices with the transposed matrices computes its own entries of the
  layer (`blockValue_eq_layer`).
-/
import Idealize.ShloMosaic.Lib.ValueIdx

noncomputable section

namespace Cert.Gnn

open Idealize.ShloMosaic Idealize.ShloMosaic.ValueIdx

/-- The input and the output array. -/
abbrev Arr : Shape := ⟨4, ![64, 64, 64, 128]⟩
/-- A grid point's block of the input and of the output: two batch slices. -/
abbrev Blk : Shape := ⟨4, ![2, 64, 64, 128]⟩
/-- A weight matrix. -/
abbrev Mat : Shape := ⟨2, ![128, 128]⟩
/-- The block with its three leading axes merged. -/
abbrev Rows : Shape := ⟨2, ![8192, 128]⟩
/-- A message: the block summed over one of its two middle axes. -/
abbrev Msg : Shape := ⟨3, ![2, 64, 128]⟩

/-- The layer at batch `b`, row `m`, column `k`, output channel `q`. -/
def layer (x : Arr.Idx → EReal) (w₁ w₂ w₃ : Mat.Idx → EReal) (b m k : Fin 64) (q : Fin 128) : EReal :=
  (∑ d : Fin 128, x (ix4 b m k d) * w₁ (ix2 q d))
    + (∑ d : Fin 128, (∑ k' : Fin 64, x (ix4 b m k' d)) * w₂ (ix2 q d))
    + (∑ d : Fin 128, (∑ m' : Fin 64, x (ix4 b m' k d)) * w₃ (ix2 q d))

/-- The layer as an array. -/
def G (x : Arr.Idx → EReal) (w₁ w₂ w₃ : Mat.Idx → EReal) : Arr.Idx → EReal :=
  fun i => layer x w₁ w₂ w₃ (i 0) (i 1) (i 2) (i 3)

/-- What one grid point computes from its block `x₀` of two batch slices and the matrices as it holds them, indexed
    (feature, output channel): the same three sums, inside the block. -/
def blockValue (x₀ : Blk.Idx → EReal) (u₁ u₂ u₃ : Mat.Idx → EReal) (b : Fin 2) (m k : Fin 64) (q : Fin 128) : EReal :=
  (∑ d : Fin 128, x₀ (ix4 b m k d) * u₁ (ix2 d q))
    + (∑ d : Fin 128, (∑ k' : Fin 64, x₀ (ix4 b m k' d)) * u₂ (ix2 d q))
    + (∑ d : Fin 128, (∑ m' : Fin 64, x₀ (ix4 b m' k d)) * u₃ (ix2 d q))

/-- A block that is batch slice `B` of `x` at its slice `b`, with matrices that are the transposes of `w₁ w₂ w₃`, computes the
    layer's entries of batch `B`. -/
theorem blockValue_eq_layer (x₀ : Blk.Idx → EReal) (u₁ u₂ u₃ : Mat.Idx → EReal) (x : Arr.Idx → EReal) (w₁ w₂ w₃ : Mat.Idx → EReal)
    (b : Fin 2) (B : Fin 64) (hx : ∀ (m k : Fin 64) (d : Fin 128), x₀ (ix4 b m k d) = x (ix4 B m k d))
    (h₁ : ∀ d q : Fin 128, u₁ (ix2 d q) = w₁ (ix2 q d)) (h₂ : ∀ d q : Fin 128, u₂ (ix2 d q) = w₂ (ix2 q d))
    (h₃ : ∀ d q : Fin 128, u₃ (ix2 d q) = w₃ (ix2 q d)) (m k : Fin 64) (q : Fin 128) :
    blockValue x₀ u₁ u₂ u₃ b m k q = layer x w₁ w₂ w₃ B m k q := by
  unfold blockValue layer
  simp only [hx, h₁, h₂, h₃]

end Cert.Gnn

end
-- ==== Proof.Terms.lean ====
/-
  The three summands a grid point's body adds, each read at one entry of the `[2, 64, 64, 128]` output block.

  The block `x` holds two batch slices; `w` is a `[128, 128]` matrix indexed (feature `d`, output channel `q`).
  * the block's own term: its `8192` rows (the three leading axes merged) times `w`, the rows split back — at
    `(b, m, k, q)` the sum over `d` of `x (b, m, k, d) · w (d, q)`;
  * the row message: `x` summed over its third axis, the `128` rows `(b, m)` times `w`, laid back as `[2, 64, 1, 128]` and
    repeated along the third axis — at `(b, m, k, q)` the sum over `d` of `(∑ k', x (b, m, k', d)) · w (d, q)`, whatever `k`;
  * the column message: `x` summed over its second axis, the rows `(b, k)` times `w`, laid back as `[2, 1, 64, 128]` and
    repeated along the second axis — at `(b, m, k, q)` the sum over `d` of `(∑ m', x (b, m', k, d)) · w (d, q)`, whatever `m`.
  Rounding an operand to a narrower format is the identity on the extended reals, and a matrix product into the zero
  accumulator is the plain sum of products (taken here as the hypothesis `hmm` on the product's dimension record).
-/
import proofs.«100462_j44495861186887_2_alg».proof.Proof.LibReshape
import proofs.«100462_j44495861186887_2_alg».proof.Proof.Spec

noncomputable section

namespace Cert.Gnn

open Idealize.ShloMosaic Idealize.ShloMosaic.ValueIdx

/-- What is used of a matrix product's dimension record: into the zero accumulator, entry `(p, q)` of `l · r` is
    `∑ k, l (p, k) · r (k, q)`. -/
def PlainProduct {M : ℕ} (dd : DotDims ⟨2, ![M, 128]⟩ Mat ⟨2, ![M, 128]⟩) : Prop :=
  ∀ (l : FVec Ideal ⟨2, ![M, 128]⟩ .bf16) (r : FVec Ideal Mat .bf16) (p : Fin M) (q : Fin 128),
    matmul dd none l r (constant (F := Ideal) ⟨2, ![M, 128]⟩ .f32 0x00000000#32) (ix2 p q) = ∑ k : Fin 128, l (ix2 p k) * r (ix2 k q)

/-- The block's own term at `(b, m, k, q)`: `∑ d, x (b, m, k, d) · w (d, q)`. -/
theorem self_term (dd : DotDims Rows Mat Rows) (hmm : PlainProduct dd)
    (x : FVec Ideal Blk .f32) (w : FVec Ideal Mat .f32)
    (h1 : Blk.ShapeCasts Rows) (h2 : Rows.ShapeCasts Blk) (h3 : Mat.ShapeCasts Mat) (hb : FTy.bf16.bits < FTy.f32.bits)
    (b : Fin 2) (m k : Fin 64) (q : Fin 128) :
    shapeCast Blk (matmul dd none (shapeCast Rows (truncf .bf16 x hb) h1) (truncf .bf16 (shapeCast Mat w h3) hb)
        (constant (F := Ideal) Rows .f32 0x00000000#32)) h2 (ix4 b m k q)
      = ∑ d : Fin 128, x (ix4 b m k d) * w (ix2 d q) := by
  have hlt : (b.val * 64 + m.val) * 64 + k.val < 8192 := by omega
  refine (LibReshape.split3_apply _ h2 b m k q ⟨_, hlt⟩ rfl).trans ?_
  refine (hmm _ _ _ _).trans ?_
  refine Finset.sum_congr rfl fun d _ => ?_
  refine congrArg₂ (fun u v : EReal => u * v) ?_ ?_
  · exact LibReshape.merge3_apply (truncf .bf16 x hb) h1 b m k d ⟨_, hlt⟩ rfl
  · exact congrFun (shapeCast_self w h3) (ix2 d q)

/-- The row message's term at `(b, m, k, q)`: `∑ d, (∑ k', x (b, m, k', d)) · w (d, q)`. -/
theorem rowMsg_term (dd : DotDims Mat Mat Mat) (hmm : PlainProduct dd)
    (x : FVec Ideal Blk .f32) (w : FVec Ideal Mat .f32)
    (hred : Blk.Reduces [2] Msg) (hφ : FKind.Formats FTy.f32) (hacc : (0x00000000#32 : BitVec 32) = FKind.add.neutral FTy.f32 hφ)
    (h3 : Mat.ShapeCasts Mat) (h4 : Msg.ShapeCasts Mat) (h5 : Mat.ShapeCasts Msg)
    (h6 : Msg.ShapeCasts ⟨4, ![2, 64, 1, 128]⟩) (h7 : (⟨4, ![2, 64, 1, 128]⟩ : Shape).Broadcasts Blk)
    (hb : FTy.bf16.bits < FTy.f32.bits) (b : Fin 2) (m k : Fin 64) (q : Fin 128) :
    broadcastTo Blk (shapeCast ⟨4, ![2, 64, 1, 128]⟩ (shapeCast Msg (matmul dd none
        (shapeCast Mat (truncf .bf16 (multiReduction (F := Ideal) .add [2] Msg x 0x00000000#32 hred hφ hacc) hb) h4)
        (truncf .bf16 (shapeCast Mat w h3) hb) (constant (F := Ideal) Mat .f32 0x00000000#32)) h5) h6) h7 (ix4 b m k q)
      = ∑ d : Fin 128, (∑ k' : Fin 64, x (ix4 b m k' d)) * w (ix2 d q) := by
  have hlt : b.val * 64 + m.val < 128 := by omega
  refine (LibReshape.fillThird_apply _ h7 b m k q).trans ?_
  refine (LibReshape.unitThird_apply _ h6 b m (0 : Fin 1) q).trans ?_
  refine (LibReshape.split2_apply _ h5 b m q ⟨_, hlt⟩ rfl).trans ?_
  refine (hmm _ _ _ _).trans ?_
  refine Finset.sum_congr rfl fun d _ => ?_
  refine congrArg₂ (fun u v : EReal => u * v) ?_ ?_
  · exact (LibReshape.merge2_apply _ h4 b m d ⟨_, hlt⟩ rfl).trans
      (LibReshape.sumThird_apply x 0x00000000#32 hred hφ hacc b m d)
  · exact congrFun (shapeCast_self w h3) (ix2 d q)

/-- The column message's term at `(b, m, k, q)`: `∑ d, (∑ m', x (b, m', k, d)) · w (d, q)`. -/
theorem colMsg_term (dd : DotDims Mat Mat Mat) (hmm : PlainProduct dd)
    (x : FVec Ideal Blk .f32) (w : FVec Ideal Mat .f32)
    (hred : Blk.Reduces [1] Msg) (hφ : FKind.Formats FTy.f32) (hacc : (0x00000000#32 : BitVec 32) = FKind.add.neutral FTy.f32 hφ)
    (h3 : Mat.ShapeCasts Mat) (h4 : Msg.ShapeCasts Mat) (h5 : Mat.ShapeCasts Msg)
    (h6 : Msg.ShapeCasts ⟨4, ![2, 1, 64, 128]⟩) (h7 : (⟨4, ![2, 1, 64, 128]⟩ : Shape).Broadcasts Blk)
    (hb : FTy.bf16.bits < FTy.f32.bits) (b : Fin 2) (m k : Fin 64) (q : Fin 128) :
    broadcastTo Blk (shapeCast ⟨4, ![2, 1, 64, 128]⟩ (shapeCast Msg (matmul dd none
        (shapeCast Mat (truncf .bf16 (multiReduction (F := Ideal) .add [1] Msg x 0x00000000#32 hred hφ hacc) hb) h4)
        (truncf .bf16 (shapeCast Mat w h3) hb) (constant (F := Ideal) Mat .f32 0x00000000#32)) h5) h6) h7 (ix4 b m k q)
      = ∑ d : Fin 128, (∑ m' : Fin 64, x (ix4 b m' k d)) * w (ix2 d q) := by
  have hlt : b.val * 64 + k.val < 128 := by omega
  refine (LibReshape.fillSecond_apply _ h7 b m k q).trans ?_
  refine (LibReshape.unitSecond_apply _ h6 b (0 : Fin 1) k q).trans ?_
  refine (LibReshape.split2_apply _ h5 b k q ⟨_, hlt⟩ rfl).trans ?_
  refine (hmm _ _ _ _).trans ?_
  refine Finset.sum_congr rfl fun d _ => ?_
  refine congrArg₂ (fun u v : EReal => u * v) ?_ ?_
  · exact (LibReshape.merge2_apply _ h4 b k d ⟨_, hlt⟩ rfl).trans
      (LibReshape.sumSecond_apply x 0x00000000#32 hred hφ hacc b k d)
  · exact congrFun (shapeCast_self w h3) (ix2 d q)

end Cert.Gnn

end
-- ==== Proof.Payload.lean ====
/-
  What the body stores, entry by entry.

  The body of a grid point loads its block `x₀` of the input and the three matrices as the region holds them (feature,
  output channel), and stores the block's own product with the first matrix plus the row message's product with the
  second plus the column message's product with the third.  Read at entry `(b, m, k, q)` of the output block, that is the
  block value of `Spec.lean`: each summand by its lemma in `Terms.lean`, the two products' dimension records being plain
  products (one contracted axis: the left operand's columns against the right operand's rows).
-/
import proofs.«100462_j44495861186887_2_alg».proof.Proof.Gen.KernelIdeal.Skeleton
import proofs.«100462_j44495861186887_2_alg».proof.Proof.LibLayout
import proofs.«100462_j44495861186887_2_alg».proof.Proof.Terms

noncomputable section

namespace Cert.Gnn

open Idealize.ShloMosaic Idealize.ShloMosaic.ValueIdx Cert.KernelIdeal Cert.KernelIdeal.Gen

/-- The product of the block's `8192` rows with a matrix is a plain product. -/
theorem plain_rows : PlainProduct dot_S8192x128_S128x128_S8192x128_1_0_0_1_n_n := fun l r p q =>
  LibLayout.matmul_rows_cols_apply dot_S8192x128_S128x128_S8192x128_1_0_0_1_n_n rfl rfl rfl rfl
    (fun j k => by
      unfold DotDims.lhsIdx
      rw [dif_neg (show ¬(0 : Fin S8192x128.rank) ∈ dot_S8192x128_S128x128_S8192x128_1_0_0_1_n_n.lhsBatch by decide),
        dif_pos (show (0 : Fin S8192x128.rank) ∈ dot_S8192x128_S128x128_S8192x128_1_0_0_1_n_n.lhsNonContracting by decide)]
      rfl)
    (fun j k => by
      unfold DotDims.rhsIdx
      rw [dif_neg (show ¬(1 : Fin S128x128.rank) ∈ dot_S8192x128_S128x128_S8192x128_1_0_0_1_n_n.rhsBatch by decide),
        dif_pos (show (1 : Fin S128x128.rank) ∈ dot_S8192x128_S128x128_S8192x128_1_0_0_1_n_n.rhsNonContracting by decide)]
      rfl)
    none l r p q

/-- The product of a message's `128` rows with a matrix is a plain product. -/
theorem plain_msg : PlainProduct dot_S128x128_S128x128_S128x128_1_0_0_1_n_n := fun l r p q =>
  LibLayout.matmul_rows_cols_apply dot_S128x128_S128x128_S128x128_1_0_0_1_n_n rfl rfl rfl rfl
    (fun j k => by
      unfold DotDims.lhsIdx
      rw [dif_neg (show ¬(0 : Fin S128x128.rank) ∈ dot_S128x128_S128x128_S128x128_1_0_0_1_n_n.lhsBatch by decide),
        dif_pos (show (0 : Fin S128x128.rank) ∈ dot_S128x128_S128x128_S128x128_1_0_0_1_n_n.lhsNonContracting by decide)]
      rfl)
    (fun j k => by
      unfold DotDims.rhsIdx
      rw [dif_neg (show ¬(1 : Fin S128x128.rank) ∈ dot_S128x128_S128x128_S128x128_1_0_0_1_n_n.rhsBatch by decide),
        dif_pos (show (1 : Fin S128x128.rank) ∈ dot_S128x128_S128x128_S128x128_1_0_0_1_n_n.rhsNonContracting by decide)]
      rfl)
    none l r p q

/-- THE PAYLOAD AT AN ENTRY: what the body stores at `(b, m, k, q)` is the block value of its loads. -/
theorem payload_apply (v0 : Vec Ideal S2x64x64x128 .f32) (v4 v7 v10 : Vec Ideal S128x128 .f32)
    (b : Fin 2) (m k : Fin 64) (q : Fin 128) :
    k0_pay1 (F := Ideal) v0 v4 v7 v10 (ix4 b m k q) = blockValue v0 v4 v7 v10 b m k q := by
  unfold k0_pay1 blockValue
  dsimp only
  exact congrArg₂ (fun u v : EReal => u + v)
    (congrArg₂ (fun u v : EReal => u + v)
      (self_term _ plain_rows v0 v4 _ _ _ _ b m k q)
      (rowMsg_term _ plain_msg v0 v7 _ _ _ _ _ _ _ _ _ b m k q))
    (colMsg_term _ plain_msg v0 v10 _ _ _ _ _ _ _ _ _ b m k q)

end Cert.Gnn

end
-- ==== Proof.KernelValue.lean ====
/-
  The kernel's result array is the layer.

  Grid point `t` of the 32 stages batch slices `2t` and `2t + 1` of the input (window 0) and the whole of each
  transposed matrix (windows 1 to 3: the host transposes the three weight arguments before the region), and writes its
  output block back to batch slices `2t`, `2t + 1` of the result (window 4).  What it writes is the body's payload of
  those blocks, which entry by entry is the layer's value at the corresponding entry of the array (`Payload.lean`,
  `Spec.lean`): the layer's three sums stay inside one batch slice.  The 32 output blocks cover the result array, so it
  ends holding the layer of the argument arrays.
-/
import proofs.«100462_j44495861186887_2_alg».proof.Proof.Gen.KernelIdeal.Value
import proofs.«100462_j44495861186887_2_alg».proof.Proof.Payload
import Idealize.ShloMosaic.Lib.Pipeline.Value
import Idealize.ShloMosaic.Lib.StableHlo.Run

noncomputable section

namespace Cert.Gnn

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem off4 : (![0, 0, 0, 0] : Fin 4 → Nat) = fun _ => 0 := funext fun a => by fin_cases a <;> rfl
theorem off2 : (![0, 0] : Fin 2 → Nat) = fun _ => 0 := funext fun a => by fin_cases a <;> rfl

/-- The printed index maps over the grid: the input's and the output's block index is the point on the batch axis and
    zero on the others; each matrix window sits at block (0, 0). -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_4.index t (0 : Fin 4) = t.val ∧ win0_4.index t (1 : Fin 4) = 0 ∧ win0_4.index t (2 : Fin 4) = 0 ∧ win0_4.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## The arrays the region finds -/

/-- The region finds, in the first matrix window's array, the transpose of the first weight argument. -/
theorem V_main_v0 (c : Dev nD) : (V m c main_v0 : S128x128.Idx → Elt Ideal .f32)
    = transpose S128x128 [1, 0] (m ((c : Thread nD τ).loc main_arg1)) transposes_S128x128_S128x128_1_0 := by
  dsimp only [Gen.V, Gen.hostOps0]; after_results
/-- … in the second's, the transpose of the second weight argument. -/
theorem V_main_v1 (c : Dev nD) : (V m c main_v1 : S128x128.Idx → Elt Ideal .f32)
    = transpose S128x128 [1, 0] (m ((c : Thread nD τ).loc main_arg2)) transposes_S128x128_S128x128_1_0 := by
  dsimp only [Gen.V, Gen.hostOps0]; after_results
/-- … in the third's, the transpose of the third weight argument. -/
theorem V_main_v2 (c : Dev nD) : (V m c main_v2 : S128x128.Idx → Elt Ideal .f32)
    = transpose S128x128 [1, 0] (m ((c : Thread nD τ).loc main_arg3)) transposes_S128x128_S128x128_1_0 := by
  dsimp only [Gen.V, Gen.hostOps0]; after_results

/-- A transposed matrix at (feature `d`, channel `q`), read at an index with those coordinates, is the matrix at `(q, d)`. -/
theorem transposed_apply (w : S128x128.Idx → Elt Ideal .f32) (h : S128x128.Transposes [1, 0] S128x128) (j : S128x128.Idx)
    (d q : Fin 128) (h0 : (j 0).val = d.val) (h1 : (j 1).val = q.val) :
    transpose S128x128 [1, 0] w h j = w (ix2 q d) :=
  transpose_apply [1, 0] w h j (ix2 q d) fun b => by
    match b with
    | ⟨0, _⟩ => exact h0.symm
    | ⟨1, _⟩ => exact h1.symm

/-! ## The blocks a point stages -/

/-- Entry `y` of the input block at point `t` is the input at batch `2t + y₀`, the other coordinates kept. -/
theorem block_input (c : Dev nD) (t : Fin cfg0.N) (y : S2x64x64x128.Idx) (i : S64x64x64x128.Idx)
    (h0 : (i 0).val = 2 * t.val + (y 0).val) (h1 : (i 1).val = (y 1).val) (h2 : (i 2).val = (y 2).val)
    (h3 : (i 3).val = (y 3).val) :
    (iblk m c 0 t : Vec Ideal S2x64x64x128 .f32) y = (m ((c : Thread nD τ).loc main_arg0) : S64x64x64x128.Idx → Elt Ideal .f32) i := by
  obtain ⟨e0, e1, e2, e3, -⟩ := idx_facts t
  unfold iblk
  rw [View.read_apply]
  show V m c main_arg0 _ = _
  rw [V_main_arg0]
  refine congrArg (m ((c : Thread nD τ).loc main_arg0) : S64x64x64x128.Idx → Elt Ideal .f32) (funext fun a => Fin.ext ?_)
  match a with
  | ⟨0, _⟩ => show win0_0.index t (0 : Fin 4) * 2 + 1 * (y 0).val = (i 0).val; omega
  | ⟨1, _⟩ => show win0_0.index t (1 : Fin 4) * 64 + 1 * (y 1).val = (i 1).val; omega
  | ⟨2, _⟩ => show win0_0.index t (2 : Fin 4) * 64 + 1 * (y 2).val = (i 2).val; omega
  | ⟨3, _⟩ => show win0_0.index t (3 : Fin 4) * 128 + 1 * (y 3).val = (i 3).val; omega

/-- Entry `(d, q)` of the first matrix block, at any point, is the first weight argument at `(q, d)`. -/
theorem block_w1 (c : Dev nD) (t : Fin cfg0.N) (d q : Fin 128) :
    (iblk m c 1 t : Vec Ideal S128x128 .f32) (ix2 d q) = (m ((c : Thread nD τ).loc main_arg1) : S128x128.Idx → Elt Ideal .f32) (ix2 q d) := by
  obtain ⟨-, -, -, -, -, -, -, -, e0, e1, -⟩ := idx_facts t
  unfold iblk
  rw [View.read_apply]
  show V m c main_v0 _ = _
  rw [V_main_v0]
  refine transposed_apply _ _ _ d q ?_ ?_
  · show win0_1.index t (0 : Fin 2) * 128 + 1 * d.val = d.val; omega
  · show win0_1.index t (1 : Fin 2) * 128 + 1 * q.val = q.val; omega

/-- Entry `(d, q)` of the second matrix block is the second weight argument at `(q, d)`. -/
theorem block_w2 (c : Dev nD) (t : Fin cfg0.N) (d q : Fin 128) :
    (iblk m c 2 t : Vec Ideal S128x128 .f32) (ix2 d q) = (m ((c : Thread nD τ).loc main_arg2) : S128x128.Idx → Elt Ideal .f32) (ix2 q d) := by
  obtain ⟨-, -, -, -, -, -, -, -, -, -, e0, e1, -⟩ := idx_facts t
  unfold iblk
  rw [View.read_apply]
  show V m c main_v1 _ = _
  rw [V_main_v1]
  refine transposed_apply _ _ _ d q ?_ ?_
  · show win0_2.index t (0 : Fin 2) * 128 + 1 * d.val = d.val; omega
  · show win0_2.index t (1 : Fin 2) * 128 + 1 * q.val = q.val; omega

/-- Entry `(d, q)` of the third matrix block is the third weight argument at `(q, d)`. -/
theorem block_w3 (c : Dev nD) (t : Fin cfg0.N) (d q : Fin 128) :
    (iblk m c 3 t : Vec Ideal S128x128 .f32) (ix2 d q) = (m ((c : Thread nD τ).loc main_arg3) : S128x128.Idx → Elt Ideal .f32) (ix2 q d) := by
  obtain ⟨-, -, -, -, -, -, -, -, -, -, -, -, e0, e1⟩ := idx_facts t
  unfold iblk
  rw [View.read_apply]
  show V m c main_v2 _ = _
  rw [V_main_v2]
  refine transposed_apply _ _ _ d q ?_ ?_
  · show win0_3.index t (0 : Fin 2) * 128 + 1 * d.val = d.val; omega
  · show win0_3.index t (1 : Fin 2) * 128 + 1 * q.val = q.val; omega

/-! ## What a point writes back -/

/-- For ANY block contents that are batch slices `2T`, `2T + 1` of an array `X` and matrices that are the transposes of
    `w₁ w₂ w₃`: the payload at entry `y` is the layer of `X w₁ w₂ w₃` at the array entry `i` under it. -/
theorem point_value (x0 : Vec Ideal S2x64x64x128 .f32) (u1 u2 u3 : Vec Ideal S128x128 .f32)
    (X : Arr.Idx → EReal) (w1 w2 w3 : Mat.Idx → EReal) (T : ℕ)
    (hx : ∀ (y : S2x64x64x128.Idx) (i : S64x64x64x128.Idx), (i 0).val = 2 * T + (y 0).val → (i 1).val = (y 1).val →
      (i 2).val = (y 2).val → (i 3).val = (y 3).val → x0 y = X i)
    (h1 : ∀ d q : Fin 128, u1 (ix2 d q) = w1 (ix2 q d)) (h2 : ∀ d q : Fin 128, u2 (ix2 d q) = w2 (ix2 q d))
    (h3 : ∀ d q : Fin 128, u3 (ix2 d q) = w3 (ix2 q d))
    (y : S2x64x64x128.Idx) (i : S64x64x64x128.Idx)
    (hi0 : (i 0).val = 2 * T + (y 0).val) (hi1 : (i 1).val = (y 1).val) (hi2 : (i 2).val = (y 2).val)
    (hi3 : (i 3).val = (y 3).val) :
    k0_pay1 (F := Ideal) x0 u1 u2 u3 y = G X w1 w2 w3 i := by
  obtain ⟨b, p, k, q, rfl⟩ : ∃ (b : Fin 2) (p k : Fin 64) (q : Fin 128), y = ix4 b p k q := ⟨y 0, y 1, y 2, y 3, eq_ix4 y⟩
  have hlt : (i 0).val < 64 := (i 0).isLt
  have hB : 2 * T + b.val < 64 := by have : (i 0).val = 2 * T + b.val := hi0; omega
  have hi : i = ix4 (⟨2 * T + b.val, hB⟩ : Fin 64) p k q := by
    funext a; apply Fin.ext
    match a with
    | ⟨0, _⟩ => exact hi0
    | ⟨1, _⟩ => exact hi1
    | ⟨2, _⟩ => exact hi2
    | ⟨3, _⟩ => exact hi3
  subst hi
  rw [payload_apply]
  exact blockValue_eq_layer x0 u1 u2 u3 X w1 w2 w3 b ⟨2 * T + b.val, hB⟩
    (fun m' k' d => hx (ix4 b m' k' d) (ix4 (⟨2 * T + b.val, hB⟩ : Fin 64) m' k' d) rfl rfl rfl rfl) h1 h2 h3 p k q

/-- The layer of the argument arrays as launched. -/
abbrev result (c : Dev nD) : Arr.Idx → EReal :=
  G (m ((c : Thread nD τ).loc main_arg0)) (m ((c : Thread nD τ).loc main_arg1)) (m ((c : Thread nD τ).loc main_arg2))
    (m ((c : Thread nD τ).loc main_arg3))

/-- WHAT POINT `t` WRITES BACK is block `t` of the layer of the argument arrays. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero off4]
  simp only [View.ld_unit_zero (S := S2x64x64x128) off4, View.ld_unit_zero (S := S128x128) off2]
  obtain ⟨-, -, -, -, e0, e1, e2, e3, -⟩ := idx_facts t
  funext y
  show k0_pay1 (F := Ideal) (iblk m c 0 t) (iblk m c 1 t) (iblk m c 2 t) (iblk m c 3 t) y
    = result m c (((cfg0.win 4).blk t).view.emb y)
  refine point_value (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) t.val (fun y i => block_input m c t y i) (block_w1 m c t) (block_w2 m c t)
    (block_w3 m c t) y (((cfg0.win 4).blk t).view.emb y) ?_ ?_ ?_ ?_
  · show win0_4.index t (0 : Fin 4) * 2 + 1 * (y 0).val = 2 * t.val + (y 0).val; omega
  · show win0_4.index t (1 : Fin 4) * 64 + 1 * (y 1).val = (y 1).val; omega
  · show win0_4.index t (2 : Fin 4) * 64 + 1 * (y 2).val = (y 2).val; omega
  · show win0_4.index t (3 : Fin 4) * 128 + 1 * (y 3).val = (y 3).val; omega

/-! ## The blocks cover the array -/

/-- An index of the result array is in point `t`'s block iff each coordinate is in the block's range on its axis. -/
theorem mem_blk (t : Fin cfg0.N) (i : S64x64x64x128.Idx) :
    i ∈ ((cfg0.win 4).blk t).view.set ↔ ∀ a : Fin 4, win0_4.index t a * S2x64x64x128.size a ≤ (i a).val
      ∧ (i a).val < win0_4.index t a * S2x64x64x128.size a + S2x64x64x128.size a := by
  show i ∈ ((View.whole main_v3).slice (win0_4.rect t)).set ↔ _
  rw [View.set_slice_whole, Rect.mem_set_unit]
  exact Iff.rfl

/-- Every entry of the result array is in the block of the point that owns its batch slice: batch `b` belongs to point `b / 2`. -/
theorem covered (i : S64x64x64x128.Idx) :
    ∃ t : Fin cfg0.N, (cfg0.win 4).flush t = true ∧ i ∈ ((cfg0.win 4).blk t).view.set := by
  have hN : cfg0.N = 32 := N_0
  have h0 : (i 0).val < 64 := (i 0).isLt
  have h1 : (i 1).val < 64 := (i 1).isLt
  have h2 : (i 2).val < 64 := (i 2).isLt
  have h3 : (i 3).val < 128 := (i 3).isLt
  have hT : (i 0).val / 2 < cfg0.N := by omega
  obtain ⟨-, -, -, -, e0, e1, e2, e3, -⟩ := idx_facts ⟨(i 0).val / 2, hT⟩
  have e0' : win0_4.index ⟨(i 0).val / 2, hT⟩ (0 : Fin 4) = (i 0).val / 2 := e0
  refine ⟨⟨(i 0).val / 2, hT⟩, flush0_4 _, ?_⟩
  rw [mem_blk]
  intro a
  match a with
  | ⟨0, _⟩ =>
    show win0_4.index ⟨(i 0).val / 2, hT⟩ (0 : Fin 4) * 2 ≤ (i 0).val ∧ (i 0).val < win0_4.index ⟨(i 0).val / 2, hT⟩ (0 : Fin 4) * 2 + 2
    omega
  | ⟨1, _⟩ =>
    show win0_4.index ⟨(i 0).val / 2, hT⟩ (1 : Fin 4) * 64 ≤ (i 1).val ∧ (i 1).val < win0_4.index ⟨(i 0).val / 2, hT⟩ (1 : Fin 4) * 64 + 64
    omega
  | ⟨2, _⟩ =>
    show win0_4.index ⟨(i 0).val / 2, hT⟩ (2 : Fin 4) * 64 ≤ (i 2).val ∧ (i 2).val < win0_4.index ⟨(i 0).val / 2, hT⟩ (2 : Fin 4) * 64 + 64
    omega
  | ⟨3, _⟩ =>
    show win0_4.index ⟨(i 0).val / 2, hT⟩ (3 : Fin 4) * 128 ≤ (i 3).val ∧ (i 3).val < win0_4.index ⟨(i 0).val / 2, hT⟩ (3 : Fin 4) * 128 + 128
    omega

/-- THE RESULT ARRAY after the run is the layer of the argument arrays. -/
theorem final (c : Dev nD) : (dats m 0 c).arrAt 4 cfg0.N = result m c :=
  (dats m 0 c).arrAt_eq_of_cover 4 (result m c) (fun t _ => flushed_eq m c t) covered

/-! ## The run, read -/

/-- Every weakly fair execution of the kernel's program ends with the result array at the layer of the argument arrays,
    and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Gnn

end
-- ==== Proof.RefValue.lean ====
/-
  The reference computes the layer.

  Its last stage, read entry by entry through the generated read-at-an-index lemmas, is the layer's value of `Spec.lean`:
  the product of the input with the first matrix over the feature axis, plus the input summed over its third axis times
  the second matrix, repeated along that axis, plus the input summed over its second axis times the third matrix, repeated
  along that axis.  The two sums start from the zero word, which is the extended real `0`.
-/
import proofs.«100462_j44495861186887_2_alg».proof.Proof.Gen.ReferenceIdeal.Read
import proofs.«100462_j44495861186887_2_alg».proof.Proof.Spec
import Idealize.ShloMosaic.PureOps.Ideal.Laws

noncomputable section

namespace Cert.Gnn

open Idealize.ShloMosaic Idealize.ShloMosaic.ValueIdx Cert.ReferenceIdeal Cert.ReferenceIdeal.Read

/-- THE REFERENCE IS THE LAYER: its result stage, as a function of the four arguments, is `G`. -/
theorem reference_eq (x0 : (⟨S64x64x64x128, .f32⟩ : BufTy).Contents (Elt Ideal))
    (x1 x2 x3 : (⟨S128x128, .f32⟩ : BufTy).Contents (Elt Ideal)) :
    val_main_v10 (F := Ideal) x0 x1 x2 x3 = G x0 x1 x2 x3 := by
  funext i
  obtain ⟨b, m, k, q, rfl⟩ : ∃ (b m k : Fin 64) (q : Fin 128), i = ix4 b m k q := ⟨i 0, i 1, i 2, i 3, eq_ix4 i⟩
  -- the stages' index functions at this entry, as coordinates
  have e2l : ∀ d : Fin 128, lidx_main_v2 (ix4 b m k q) d = ix4 b m k d := fun d => funext fun a => Fin.ext (by
    match a with | ⟨0, _⟩ => rfl | ⟨1, _⟩ => rfl | ⟨2, _⟩ => rfl | ⟨3, _⟩ => rfl)
  have e2r : ∀ d : Fin 128, ridx_main_v2 (ix4 b m k q) d = ix2 q d := fun d => funext fun a => Fin.ext (by
    match a with | ⟨0, _⟩ => rfl | ⟨1, _⟩ => rfl)
  have e3l : ∀ d : Fin 128, lidx_main_v3 (idx_main_v4 (idx_main_v7 (ix4 b m k q))) d = ix3 b m d := fun d =>
    funext fun a => Fin.ext (by match a with | ⟨0, _⟩ => rfl | ⟨1, _⟩ => rfl | ⟨2, _⟩ => rfl)
  have e3r : ∀ d : Fin 128, ridx_main_v3 (idx_main_v4 (idx_main_v7 (ix4 b m k q))) d = ix2 q d := fun d =>
    funext fun a => Fin.ext (by match a with | ⟨0, _⟩ => rfl | ⟨1, _⟩ => rfl)
  have e0 : ∀ (d : Fin 128) (k' : Fin 64), idx_main_v0 (ix3 b m d) k' = ix4 b m k' d := fun d k' =>
    funext fun a => Fin.ext (by match a with | ⟨0, _⟩ => rfl | ⟨1, _⟩ => rfl | ⟨2, _⟩ => rfl | ⟨3, _⟩ => rfl)
  have e5l : ∀ d : Fin 128, lidx_main_v5 (idx_main_v6 (idx_main_v9 (ix4 b m k q))) d = ix3 b k d := fun d =>
    funext fun a => Fin.ext (by match a with | ⟨0, _⟩ => rfl | ⟨1, _⟩ => rfl | ⟨2, _⟩ => rfl)
  have e5r : ∀ d : Fin 128, ridx_main_v5 (idx_main_v6 (idx_main_v9 (ix4 b m k q))) d = ix2 q d := fun d =>
    funext fun a => Fin.ext (by match a with | ⟨0, _⟩ => rfl | ⟨1, _⟩ => rfl)
  have e1 : ∀ (d : Fin 128) (m' : Fin 64), idx_main_v1 (ix3 b k d) m' = ix4 b m' k d := fun d m' =>
    funext fun a => Fin.ext (by match a with | ⟨0, _⟩ => rfl | ⟨1, _⟩ => rfl | ⟨2, _⟩ => rfl | ⟨3, _⟩ => rfl)
  -- both sums start from the zero word
  have hz : ∀ j : S_.Idx, val_main_cst (F := Ideal) j = 0 := fun _ => Ideal.ofBits_zero_f32
  have hz0 : ∀ j : S_.Idx, val_main_cst_0 (F := Ideal) j = 0 := fun _ => Ideal.ofBits_zero_f32
  rw [val_main_v10_apply, val_main_v8_apply, val_main_v2_apply, val_main_v7_apply, val_main_v4_apply, val_main_v3_apply,
    val_main_v9_apply, val_main_v6_apply, val_main_v5_apply]
  simp only [val_main_v0_apply, val_main_v1_apply, e2l, e2r, e3l, e3r, e0, e5l, e5r, e1, hz, hz0, zero_add, Ideal.addf_def]
  rfl

end Cert.Gnn

end
-- ==== Proof.lean ====
/-
  The kernel computes the layer its reference computes.

  Both programs take an input `x : [64, 64, 64, 128]` (batch, row, column, feature) and three `[128, 128]` matrices
  (output channel, feature), and return, at (batch `b`, row `m`, column `k`, channel `q`),

      ∑ d, x (b, m, k, d) · w₁ (q, d)  +  ∑ d, (∑ k', x (b, m, k', d)) · w₂ (q, d)  +  ∑ d, (∑ m', x (b, m', k, d)) · w₃ (q, d).

  The reference does so with three contractions over the feature axis on whole arrays.  The kernel transposes the
  matrices, then on a grid of 32 points takes two batch slices at a time: it sums the block over its columns and over
  its rows, multiplies the block's 8192 rows and the two sums' 128 rows each by its transposed matrix, and adds the
  three, the two messages repeated along the axis they were summed over.  On the extended reals the narrower format the
  products' operands pass through is the identity, a product into the zero accumulator and a sum from the zero word are
  plain sums, and the three sums of one entry never leave its batch slice; so each block is the layer's, and the blocks
  cover the result.  No law beyond reading both sides entry by entry is needed, and the inputs' finiteness is never used.
  The idealization rewrote nothing, so that it preserves the kernel is immediate.
-/
import proofs.«100462_j44495861186887_2_alg».proof.Defs
import proofs.«100462_j44495861186887_2_alg».proof.Proof.Gen.Kernel
import proofs.«100462_j44495861186887_2_alg».proof.Proof.Gen.Kernel.Skeleton
import proofs.«100462_j44495861186887_2_alg».proof.Proof.Gen.Kernel.Launch
import proofs.«100462_j44495861186887_2_alg».proof.Proof.Gen.Kernel.Points
import proofs.«100462_j44495861186887_2_alg».proof.Proof.Gen.Kernel.Frame
import proofs.«100462_j44495861186887_2_alg».proof.Proof.Gen.KernelIdeal
import proofs.«100462_j44495861186887_2_alg».proof.Proof.Gen.KernelIdeal.Skeleton
import proofs.«100462_j44495861186887_2_alg».proof.Proof.Gen.KernelIdeal.Launch
import proofs.«100462_j44495861186887_2_alg».proof.Proof.Gen.KernelIdeal.Points
import proofs.«100462_j44495861186887_2_alg».proof.Proof.Gen.KernelIdeal.Frame
import proofs.«100462_j44495861186887_2_alg».proof.Proof.Gen.ReferenceIdeal
import proofs.«100462_j44495861186887_2_alg».proof.Proof.Gen.Pre_finite_inputs
import proofs.«100462_j44495861186887_2_alg».proof.Proof.Gen.KernelIdeal.Value
import proofs.«100462_j44495861186887_2_alg».proof.Proof.Gen.ReferenceIdeal.Run
import proofs.«100462_j44495861186887_2_alg».proof.Proof.Gen.ReferenceIdeal.Read
import proofs.«100462_j44495861186887_2_alg».proof.Proof.KernelValue
import proofs.«100462_j44495861186887_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the layer of those arguments in their result
    arrays: the kernel's by its blocks, the reference's by its last stage read entry by entry. -/
theorem algebraic : Cert.algebraic_KernelIdeal_ReferenceIdeal := by
  intro m ρ m' ρ' _ hagree
  refine ⟨fun c => Cert.Gnn.result m c, Cert.Gnn.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v10_eq _ _ _ _).trans (Cert.Gnn.reference_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
